-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S50000 : Shape := ⟨1, ![50000]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg10 : FVec F S128x128 .f32) (main_arg11 : FVec F S128 .f32) (main_arg12 : FVec F S128x128 .f32) (main_arg13 : FVec F S128 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg7 : FVec F S128 .f32) (main_arg8 : FVec F S128x128 .f32) (main_arg9 : FVec F S128x128 .f32) (main_arg10 : FVec F S128x128 .f32) (main_arg11 : FVec F S128 .f32) (main_arg12 : FVec F S128x128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_v33

def fn {F : FTy → Type} [FloatOps F] (main_arg0 : FVec F S50000x128 .f32) (main_arg1 : FVec F S50000x3 .f32) (main_arg2 : IVec S50000 32) (main_arg3 : IVec S600000 32) (main_arg4 : IVec S600000 32) (main_arg5 : FVec F S128x128 .f32) (main_arg6 : FVec F S128 .f32) (main_arg7 : FVec F S128 .f32) (main_arg8 : FVec F S128x128 .f32) (main_arg9 : FVec F S128x128 .f32) (main_arg10 : FVec F S128x128 .f32) (main_arg11 : FVec F S128 .f32) (main_arg12 : FVec F S128x128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_v13 main_v16
-- ==== Kernel.lean ====
abbrev S50000x128 : Shape := ⟨2, ![50000, 128]⟩
abbrev S50000x3 : Shape := ⟨2, ![50000, 3]⟩
abbrev S50000 : Shape := ⟨1, ![50000]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x3 : Shape := ⟨2, ![600000, 3]⟩
abbrev S600000x128 : Shape := ⟨2, ![600000, 128]⟩
abbrev S1x128 : Shape := ⟨2, ![1, 128]⟩
abbrev S3000x3 : Shape := ⟨2, ![3000, 3]⟩
abbrev S3000x128 : Shape := ⟨2, ![3000, 128]⟩
abbrev S3000 : Shape := ⟨1, ![3000]⟩
abbrev S3000x1 : Shape := ⟨2, ![3000, 1]⟩
abbrev S5000x128 : Shape := ⟨2, ![5000, 128]⟩

abbrev nBuf : Space → Nat
  | .hbm => 54
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S50000, .i32⟩
  | .hbm, ⟨3, _⟩ => ⟨S600000, .i32⟩
  | .hbm, ⟨4, _⟩ => ⟨S600000, .i32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x3, .f32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S600000x3, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000x128, .f32⟩
  | .hbm, ⟨41, _⟩ => ⟨S128x128, .f32⟩
  | .hbm, ⟨42, _⟩ => ⟨S128x128, .f32⟩
  | .hbm, ⟨43, _⟩ => ⟨S1x128, .f32⟩
  | .hbm, ⟨44, _⟩ => ⟨S600000x128, .f32⟩
  | .hbm, ⟨45, _⟩ => ⟨S_, .f32⟩
  | .hbm, ⟨46, _⟩ => ⟨S50000x128, .f32⟩
  | .hbm, ⟨47, _⟩ => ⟨S600000x1, .i32⟩
  | .hbm, ⟨48, _⟩ => ⟨S50000x128, .f32⟩
  | .hbm, ⟨49, _⟩ => ⟨S128x128, .f32⟩
  | .hbm, ⟨50, _⟩ => ⟨S128x128, .f32⟩
  | .hbm, ⟨51, _⟩ => ⟨S1x128, .f32⟩
  | .hbm, ⟨52, _⟩ => ⟨S1x128, .f32⟩
  | .hbm, ⟨53, _⟩ => ⟨S50000x128, .f32⟩
  | .local _ .vmem, ⟨0, _⟩ => ⟨S3000x3, .f32⟩
  | .local _ .vmem, ⟨1, _⟩ => ⟨S3000x3, .f32⟩
  | .local _ .vmem, ⟨2, _⟩ => ⟨S3000x3, .f32⟩
  | .local _ .vmem, ⟨3, _⟩ => ⟨S3000x3, .f32⟩
  | .local _ .vmem, ⟨4, _⟩ => ⟨S3000x128, .f32⟩
  | .local _ .vmem, ⟨5, _⟩ => ⟨S3000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S3000x128, .f32⟩
  | .local _ .vmem, ⟨10, _⟩ => ⟨S3000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  transposes_S128x128_S128x128_1_0 : S128x128.Transposes [1, 0] S128x128
  shapeCasts_S128_S1x128 : S128.ShapeCasts S1x128
  inb_S3000x3_S3000x3_0_0 : ∀ a, (![0, 0] : Fin 2 → Nat) a + S3000x3.size a ≤ S3000x3.size a
  h_S3000x3 : 0 < S3000x3.numel
  shapeCasts_S3000x3_S3000x3 : S3000x3.ShapeCasts S3000x3
  reduces_S3000x3_S3000 : S3000x3.Reduces [1] S3000
  shapeCasts_S3000_S3000x1 : S3000.ShapeCasts S3000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S3000x1_S3000x128 : S3000x1.Broadcasts S3000x128
  broadcasts_S1x128_S3000x128 : S1x128.Broadcasts S3000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S3000x128_S3000x128_0_0 : ∀ a, (![0, 0] : Fin 2 → Nat) a + S3000x128.size a ≤ S3000x128.size a
  h_S3000x128 : 0 < S3000x128.numel
  shapeCasts_S3000x128_S3000x128 : S3000x128.ShapeCasts S3000x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x3_S600000x1_S600000x3_1_0_n_n_0_1_13_wf : GatherDims.WF S50000x3 S600000x1 S600000x3 [1] [0] [] [0] [] 1 ![1, 3]
  gather_S50000x128_S600000x1_S600000x128_1_0_n_n_0_1_1128_wf : GatherDims.WF S50000x128 S600000x1 S600000x128 [1] [0] [] [0] [] 1 ![1, 128]
  dot_S3000x128_S128x128_S3000x128_1_0_0_1_n_n_wf : DotDims.WF S3000x128 S128x128 S3000x128 [1] [0] [0] [1] [] []
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x3.size a ≤ S600000x3.size a
  hwx0_0 : ∀ i : grid0.Coords, EltTy.bits .f32 = 32 ∨ (Rect.block (s := S600000x3) S3000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x3.size a ≤ S600000x3.size a
  hwx0_1 : ∀ i : grid0.Coords, EltTy.bits .f32 = 32 ∨ (Rect.block (s := S600000x3) S3000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x128.size a ≤ S600000x128.size a
  hwx0_2 : ∀ i : grid0.Coords, EltTy.bits .f32 = 32 ∨ (Rect.block (s := S600000x128) S3000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3000x128.size a ≤ S600000x128.size a
  hwx0_6 : ∀ i : grid0.Coords, EltTy.bits .f32 = 32 ∨ (Rect.block (s := S600000x128) S3000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x3_S600000x1_S600000x3_1_0_n_n_0_1_13 : GatherDims S50000x3 S600000x1 S600000x3 where
  offsetDims := [1]
  collapsedSliceDims := [0]
  operandBatchingDims := []
  startIndicesBatchingDims := []
  startIndexMap := [0]
  indexVectorDim := 1
  sliceSizes := ![1, 3]
  wf := gather_S50000x3_S600000x1_S600000x3_1_0_n_n_0_1_13_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S3000x128_S128x128_S3000x128_1_0_0_1_n_n : DotDims S3000x128 S128x128 S3000x128 where
  lhsContracting := [1]
  rhsContracting := [0]
  lhsNonContracting := [0]
  rhsNonContracting := [1]
  lhsBatch := []
  rhsBatch := []
  wf := dot_S3000x128_S128x128_S3000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v6) S3000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S3000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S3000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S3000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S50000 : Shape := ⟨1, ![50000]⟩
abbrev S600000 : Shape := ⟨1, ![600000]⟩
abbrev S128x128 : Shape := ⟨2, ![128, 128]⟩
abbrev S128 : Shape := ⟨1, ![128]⟩
abbrev S1x128 : Shape := ⟨2, ![1, 128]⟩
abbrev S_ : Shape := ⟨0, ![]⟩
abbrev S600000x1 : Shape := ⟨2, ![600000, 1]⟩
abbrev S600000x3 : Shape := ⟨2, ![600000, 3]⟩
abbrev S600000x128 : Shape := ⟨2, ![600000, 128]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S50000, .i32⟩
  | .hbm, ⟨3, _⟩ => ⟨S600000, .i32⟩
  | .hbm, ⟨4, _⟩ => ⟨S600000, .i32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S50000x128, .f32⟩
  | .hbm, ⟨16, _⟩ => ⟨S1x128, .f32⟩
  | .hbm, ⟨17, _⟩ => ⟨S50000x128, .f32⟩
  | .hbm, ⟨18, _⟩ => ⟨S50000x128, .f32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x3, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x3, .f32⟩
  | .hbm, ⟨37, _⟩ => ⟨S600000x3, .f32⟩
  | .hbm, ⟨38, _⟩ => ⟨S600000x3, .f32⟩
  | .hbm, ⟨39, _⟩ => ⟨S_, .f32⟩
  | .hbm, ⟨40, _⟩ => ⟨S600000, .f32⟩
  | .hbm, ⟨41, _⟩ => ⟨S600000, .f32⟩
  | .hbm, ⟨42, _⟩ => ⟨S600000x1, .f32⟩
  | .hbm, ⟨43, _⟩ => ⟨S1x128, .f32⟩
  | .hbm, ⟨44, _⟩ => ⟨S600000x128, .f32⟩
  | .hbm, ⟨45, _⟩ => ⟨S600000x128, .f32⟩
  | .hbm, ⟨46, _⟩ => ⟨S600000x128, .f32⟩
  | .hbm, ⟨47, _⟩ => ⟨S600000x128, .f32⟩
  | .hbm, ⟨48, _⟩ => ⟨S_, .f32⟩
  | .hbm, ⟨49, _⟩ => ⟨S600000x128, .f32⟩
  | .hbm, ⟨50, _⟩ => ⟨S600000x128, .f32⟩
  | .hbm, ⟨51, _⟩ => ⟨S600000x128, .f32⟩
  | .hbm, ⟨52, _⟩ => ⟨S128x128, .f32⟩
  | .hbm, ⟨53, _⟩ => ⟨S600000x128, .f32⟩
  | .hbm, ⟨54, _⟩ => ⟨S_, .f32⟩
  | .hbm, ⟨55, _⟩ => ⟨S600000x128, .f32⟩
  | .hbm, ⟨56, _⟩ => ⟨S600000x128, .f32⟩
  | .hbm, ⟨57, _⟩ => ⟨S128x128, .f32⟩
  | .hbm, ⟨58, _⟩ => ⟨S600000x128, .f32⟩
  | .hbm, ⟨59, _⟩ => ⟨S_, .f32⟩
  | .hbm, ⟨60, _⟩ => ⟨S600000x128, .f32⟩
  | .hbm, ⟨61, _⟩ => ⟨S600000x128, .f32⟩
  | .hbm, ⟨62, _⟩ => ⟨S_, .i32⟩
  | .hbm, ⟨63, _⟩ => ⟨S600000, .i32⟩
  | .hbm, ⟨64, _⟩ => ⟨S600000, .i1⟩
  | .hbm, ⟨65, _⟩ => ⟨S_, .i32⟩
  | .hbm, ⟨66, _⟩ => ⟨S600000, .i32⟩
  | .hbm, ⟨67, _⟩ => ⟨S600000, .i32⟩
  | .hbm, ⟨68, _⟩ => ⟨S600000, .i32⟩
  | .hbm, ⟨69, _⟩ => ⟨S600000x1, .i32⟩
  | .hbm, ⟨70, _⟩ => ⟨S600000x128, .f32⟩
  | .hbm, ⟨71, _⟩ => ⟨S600000x128, .f32⟩
  | .hbm, ⟨72, _⟩ => ⟨S_, .f32⟩
  | .hbm, ⟨73, _⟩ => ⟨S50000x128, .f32⟩
  | .hbm, ⟨74, _⟩ => ⟨S600000x1, .i32⟩
  | .hbm, ⟨75, _⟩ => ⟨S50000x128, .f32⟩
  | .hbm, ⟨76, _⟩ => ⟨S128x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S50000x128, .f32⟩
  | .hbm, ⟨83, _⟩ => ⟨S50000x128, .f32⟩
  | .hbm, ⟨84, _⟩ => ⟨S128x128, .f32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_1 : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call0_v0 : Ref sig .tc := ⟨.hbm, 38, rfl⟩
abbrev main_call0_cst : Ref sig .tc := ⟨.hbm, 39, rfl⟩
abbrev main_call0_v1 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call1_cst : Ref sig .tc := ⟨.hbm, 54, rfl⟩
abbrev main_call1_v0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call2_cst : Ref sig .tc := ⟨.hbm, 59, rfl⟩
abbrev main_call2_v0 : Ref sig .tc := ⟨.hbm, 60, rfl⟩
abbrev main_v35 : Ref sig .tc := ⟨.hbm, 61, rfl⟩
abbrev main_c_3 : Ref sig .tc := ⟨.hbm, 62, rfl⟩
abbrev main_v36 : Ref sig .tc := ⟨.hbm, 63, rfl⟩
abbrev main_v37 : Ref sig .tc := ⟨.hbm, 64, rfl⟩
abbrev main_c_4 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_5 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call3_cst : Ref sig .tc := ⟨.hbm, 81, rfl⟩
abbrev main_call3_v0 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  reducesTo_S600000x3_S600000_d1 : S600000x3.ReducesTo [1] S600000
  h_S_ : 0 < S_.numel
  bcast_S600000x1_S600000x128_0_1 : S600000x1.BroadcastsInDim S600000x128 (![0, 1] : Fin 2 → Fin S600000x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  gather_S50000x3_S600000x1_S600000x3_1_0_n_n_0_1_13_wf : GatherDims.WF S50000x3 S600000x1 S600000x3 [1] [0] [] [0] [] 1 ![1, 3]
  dot_S600000x128_S128x128_S600000x128_1_0_0_1_n_n_wf : DotDims.WF S600000x128 S128x128 S600000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x3_S600000x1_S600000x3_1_0_n_n_0_1_13 : GatherDims S50000x3 S600000x1 S600000x3 where
  offsetDims := [1]
  collapsedSliceDims := [0]
  operandBatchingDims := []
  startIndicesBatchingDims := []
  startIndexMap := [0]
  indexVectorDim := 1
  sliceSizes := ![1, 3]
  wf := gather_S50000x3_S600000x1_S600000x3_1_0_n_n_0_1_13_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.KernelRun.lean ====
/-
  The idealized kernel's run, with every buffer named.

  The program is four stretches in a row: host operations, the edge pipeline, host operations, the node pipeline. The
  contents of the TensorCore's buffers at the four boundaries are a fold from the launch memory: a host stretch
  applies its operations, a pipeline replaces its output array by what its write-backs leave. This module restates the
  run with the post "every unscoped buffer ends at the last boundary's contents", from which any one buffer's final
  value — an argument's or the result's — is read off.
-/
import proofs.«149274_j24592982736979_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates without a fault, and in the final state every
    unscoped buffer of every core holds the contents of the last boundary of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result array ends at the last boundary's contents, and every argument array ends as launched. -/
theorem run_result : θ_run defs (onTc (τ := τ) (main (F := F))) ⟨m, fun _ => 0, ρ⟩ (fun r => ∀ c : Dev nD,
      r.2.mem ((c.tc : Thread nD τ).loc main_v32) = W4 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
      ⟨h c _ (mem_uc main_v32 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)
    (run_all m ρ)

end Cert.KernelIdeal.RunValue

end
-- ==== Proof.Spec.lean ====
/-
  The two stages of the message-passing layer, entry by entry, on the extended reals.

  Edge stage. For an edge with endpoint coordinates `cs`, `cd` (three reals each) the distance is the square root of
  the sum of the squared coordinate differences; its radial-basis expansion at a centre `μ` is
  `exp (γ · (d − μ)²)` with `γ` the f32 word both programs print; two bias-free layers with a ReLU follow (each a sum
  over 128 inputs, clamped below at 0), and the edge's message entry is the source node's feature times the filter.

  Node stage. An aggregated feature row `h` goes through one affine layer with a ReLU and one affine layer without.

  Only sums, products, differences, maxima, `sqrt` and `exp` of extended reals appear, each in the order in which
  both programs apply them, so no law of arithmetic beyond the equality of the terms is needed to join the two sides.
-/
import Idealize.ShloMosaic.PureOps.Ideal

noncomputable section

open scoped BigOperators

namespace Cert.Proof.Spec

open Idealize.ShloMosaic

/-- A dot product of `K` terms followed by a ReLU. -/
def layer {K : ℕ} (x w : Fin K → EReal) : EReal := max (∑ k, x k * w k) 0

/-- The Euclidean distance of two points of 3-space. -/
def dist (cs cd : Fin 3 → EReal) : EReal := Ideal.sqrt (∑ a, (cs a - cd a) * (cs a - cd a))

/-- One radial basis function of a distance: `exp (γ · (d − μ)²)`, `γ` the printed f32 word. -/
def rbf (d μ : EReal) : EReal := Ideal.exp (Ideal.ofBits .f32 0xC3A14A3D#32 * ((d - μ) * (d - μ)))

/-- Entry `c` of an edge's message: the source feature `nf` times the two-layer filter of the edge's radial basis
    expansion. `A k j`, `B j c` are the two weight matrices as the products read them (inputs first). -/
def msg (nf : EReal) (cs cd : Fin 3 → EReal) (μ : Fin 128 → EReal) (A B : Fin 128 → Fin 128 → EReal) (c : Fin 128) : EReal :=
  nf * layer (fun j => layer (fun k => rbf (dist cs cd) (μ k)) (fun k => A k j)) (fun j => B j c)

/-- Entry `c` of a node's update: `relu (h · A + b₁) · B + b₂`. -/
def upd (h : Fin 128 → EReal) (A B : Fin 128 → Fin 128 → EReal) (b₁ b₂ : Fin 128 → EReal) (c : Fin 128) : EReal :=
  (∑ j, max ((∑ k, h k * A k j) + b₁ j) 0 * B j c) + b₂ c

end Cert.Proof.Spec

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.Layers.lean ====
/-
  Matrix-unit layers of a kernel body read at an index, on the extended reals, generic in the extents.

  A kernel rounds both factors of a product to bf16 on their way into the matrix unit (no change of value on the
  extended reals), accumulates from zero with the plain `M × K` by `K × N` contraction, and spells a ReLU as the maximum
  with a broadcast zero word. Entry `(r, c)` of such a product is `∑ k, X (r, k) · W (k, c)`.
-/
import Idealize.ShloMosaic.PureOps.Ideal
import Idealize.ShloMosaic.PureOps.Ideal.Laws
import Idealize.ShloMosaic.Lib.ValueIdx
import proofs.«149274_j24592982736979_1_alg».proof.Proof.LibPlainDot
import proofs.«149274_j24592982736979_1_alg».proof.Proof.Spec

noncomputable section

open scoped BigOperators

namespace Cert.Proof.Layers

open Idealize.ShloMosaic Idealize.ShloMosaic.ValueIdx

variable {M K N : ℕ}

/-- A product of bf16-rounded factors into the zero accumulator, at `(r, c)`: the sum over the contracted axis. -/
theorem matmul_bf16_apply (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (hX hW : FTy.bits .bf16 < FTy.bits .f32)
    (r : Fin M) (c : Fin N) :
    matmul d none (truncf .bf16 X hX) (truncf .bf16 W hW) (constant ⟨2, ![M, N]⟩ .f32 0x00000000#32) (ix2 r c)
      = ∑ k : Fin K, X (ix2 r k) * W (ix2 k c) := by
  subst hd
  exact Cert.Proof.PlainDot.matmul_plain_zero none (truncf .bf16 X hX) (truncf .bf16 W hW) (ix2 r c)

/-- The maximum with a broadcast f32 zero word, at an index, is `max · 0`. -/
theorem relu_apply {s : Shape} (x : FVec Ideal s .f32) (i : s.Idx) :
    maximumf x (broadcast s (Scalar.ofBits (F := Ideal) .f32 0x00000000#32)) i = max (x i) 0 := by
  show max (x i) (Ideal.ofBits .f32 0x00000000#32) = max (x i) 0
  rw [Ideal.ofBits_zero_f32]

/-- A bf16 product into the zero accumulator followed by the ReLU, at `(r, c)`: the layer of row `r` of the left factor
    against column `c` of the right. -/
theorem relu_layer_apply (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (hX hW : FTy.bits .bf16 < FTy.bits .f32)
    (r : Fin M) (c : Fin N) :
    maximumf (matmul d none (truncf .bf16 X hX) (truncf .bf16 W hW) (constant ⟨2, ![M, N]⟩ .f32 0x00000000#32))
        (broadcast ⟨2, ![M, N]⟩ (Scalar.ofBits (F := Ideal) .f32 0x00000000#32)) (ix2 r c)
      = Spec.layer (fun k => X (ix2 r k)) (fun k => W (ix2 k c)) :=
  (relu_apply _ _).trans (congrArg (max · 0) (matmul_bf16_apply d hd X W hX hW r c))

end Cert.Proof.Layers

end
-- ==== Proof.LibColumns.lean ====
/-
  Column forms of three layout operations, read at an index of literal coordinates.

  A sum over the lanes of an `a × b` array keeps one entry per row; kernels then give that column vector a unit second
  axis (`[a] → [a, 1]`) and spread it back over the lanes (`[a, 1] → [a, b]`). Read at an index:

  * `shapeCast_a_a1_apply`: the cast of `x : [a]` to `[a, 1]` at `(r, u)` is `x r`, whatever the unit coordinate `u`;
  * `broadcastTo_a1_ab_apply`: the broadcast of `v : [a, 1]` to `[a, b]` at `(r, c)` is `v (r, 0)`;
  * `shapeCast_a1_1a_apply`: the cast of a column `x : [a, 1]` to a row `[1, a]` at `(u, c)` is `x (c, 0)`;
  * `lift_rows`: over a row index `r`, the source index with lane `k` put back is `(r, k)`;
  * `multiReduction_add_rows`: at the extended reals the lane sum of `x : [a, b]` at row `r` is `∑ k, x (r, k)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Proof.Columns

open Idealize.ShloMosaic Idealize.ShloMosaic.ValueIdx

variable {α : Type}

/-- An `[a]` array cast to `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` cast to a row `[1, a]` reads, at `(u, c)`, the operand at `(c, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (c : Fin a) : shapeCast ⟨2, ![1, a]⟩ x h (ix2 u c) = x (ix2 c (0 : Fin 1)) :=
  shapeCast_apply x h _ _ (by
    have hu : u.val = 0 := by omega
    rw [Shape.rowMajor_val_two, Shape.rowMajor_val_two]
    show c.val * 1 + 0 = u.val * a + c.val
    rw [hu, Nat.zero_mul, Nat.zero_add, Nat.mul_one, Nat.add_zero])

/-- An `[a, 1]` array broadcast to `[a, b]` reads, at `(r, c)`, the operand's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the row index `r`, the source index whose lane coordinate is `k` is `(r, k)`. -/
theorem lift_rows {a b : ℕ} (h : (⟨2, ![a, b]⟩ : Shape).Reduces [(1 : Fin 2)] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lanes of an `a × b` array, at the extended reals and at row `r`, is `∑ k, x (r, k)`. The
    accumulator fact is taken in the form a printed program carries it. -/
theorem multiReduction_add_rows {a b : ℕ} {φ : FTy} (x : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (r : Fin a) :
    multiReduction .add [(1 : Fin 2)] ⟨1, ![a]⟩ x acc h hφ hacc (ix1 r) = ∑ k : Fin b, x (ix2 r k) := by
  refine (Ideal.multiReduction_add_single x acc h hφ hacc (ix1 r)).trans ?_
  exact Finset.sum_congr rfl fun k _ => congrArg x (lift_rows h r k)

end Cert.Proof.Columns

end
-- ==== Proof.EdgeBody.lean ====
/-
  The edge kernel's stored value, read at an index.

  The body loads a block of 3000 edges — the two endpoints' coordinates (3000 × 3 each) and the source features
  (3000 × 128) — together with the whole centre row (1 × 128) and the two weight matrices (128 × 128, inputs first), and
  stores one 3000 × 128 block. Entry `(p, c)` of that block depends on row `p` of the three edge blocks only: it is the
  message entry `Spec.msg` of edge `p` of the block.
-/
import proofs.«149274_j24592982736979_1_alg».proof.Proof.Gen.KernelIdeal.Skeleton
import proofs.«149274_j24592982736979_1_alg».proof.Proof.Spec
import proofs.«149274_j24592982736979_1_alg».proof.Proof.Layers
import proofs.«149274_j24592982736979_1_alg».proof.Proof.LibColumns
import Idealize.ShloMosaic.Lib.ValueLayout
import Idealize.ShloMosaic.Lib.Pipeline.Value

noncomputable section

open scoped BigOperators

namespace Cert.KernelIdeal.EdgeBody

open Idealize.ShloMosaic Idealize.ShloMosaic.ValueIdx Cert.KernelIdeal Cert.KernelIdeal.Gen Cert.Proof.Spec Cert.Proof

/-- The column of distances of a block: the lane sum of the squared coordinate differences, given a unit second axis,
    under the square root; at row `p` it is the distance of edge `p`'s endpoints. -/
theorem dist_apply (x0 x1 : FVec Ideal S3000x3 .f32) (p : Fin 3000) (u : Fin 1) :
    sqrt (shapeCast S3000x1 (multiReduction .add [1] S3000 (mulf (subf x0 x1) (subf x0 x1)) 0x00000000#32
        reduces_S3000x3_S3000 (.inl rfl) rfl) shapeCasts_S3000_S3000x1) (ix2 p u)
      = Spec.dist (fun a => x0 (ix2 p a)) (fun a => x1 (ix2 p a)) := by
  unfold Spec.dist
  refine congrArg Ideal.sqrt ?_
  refine (Columns.shapeCast_a_a1_apply _ shapeCasts_S3000_S3000x1 p u).trans ?_
  exact Columns.multiReduction_add_rows (mulf (subf x0 x1) (subf x0 x1)) 0x00000000#32 reduces_S3000x3_S3000 (.inl rfl) rfl p

/-- Entry `(p, c)` of the stored block is the message entry of the block's edge `p`. -/
theorem payload_apply (x0 x1 : Vec Ideal S3000x3 .f32) (x5 : Vec Ideal S1x128 .f32) (x3 x4 : Vec Ideal S128x128 .f32)
    (x2 : Vec Ideal S3000x128 .f32) (p : Fin 3000) (c : Fin 128) :
    k0_pay1 x0 x1 x5 x3 x4 x2 (ix2 p c)
      = msg (x2 (ix2 p c)) (fun a => x0 (ix2 p a)) (fun a => x1 (ix2 p a)) (fun k => x5 (ix2 0 k))
          (fun k j => x3 (ix2 k j)) (fun j c => x4 (ix2 j c)) c := by
  unfold k0_pay1 msg
  simp only [shapeCast_self]
  refine (mulf_apply _ _ _).trans (congrArg (x2 (ix2 p c) * ·) ?_)
  refine (Layers.relu_layer_apply _ rfl _ x4 _ _ p c).trans ?_
  refine congrArg (fun f => layer f fun j => x4 (ix2 j c)) (funext fun j => ?_)
  refine (Layers.relu_layer_apply _ rfl _ x3 _ _ p j).trans ?_
  refine congrArg (fun f => layer f fun k => x3 (ix2 k j)) (funext fun k => ?_)
  unfold rbf
  refine congrArg Ideal.exp (congrArg (Ideal.ofBits .f32 0xC3A14A3D#32 * ·) ?_)
  refine (mulf_apply _ _ _).trans ?_
  have key : ∀ (A B : FVec Ideal S3000x128 .f32) (a b : EReal), A (ix2 p k) = a → B (ix2 p k) = b →
      subf A B (ix2 p k) * subf A B (ix2 p k) = (a - b) * (a - b) := by
    intro A B a b ha hb
    rw [subf_apply, ha, hb]
  exact key _ _ _ _
    ((Columns.broadcastTo_a1_ab_apply _ broadcasts_S3000x1_S3000x128 p k).trans (dist_apply _ _ p 0))
    (broadcastTo_1b_ab_apply x5 broadcasts_S1x128_S3000x128 p k)

end Cert.KernelIdeal.EdgeBody

end
-- ==== Proof.EdgeArray.lean ====
/-
  The edge pipeline's output array as one function of its input arrays.

  The pipeline has 200 grid points; point `t` reads rows `3000 t … 3000 t + 2999` of the three edge arrays (the two
  gathered coordinate arrays and the gathered feature array), the whole of the two weight matrices and the centre row,
  and writes rows `3000 t … 3000 t + 2999` of the message array. The blocks tile the 600000 rows, so after the run the
  message array is, entry by entry, the message entry of that row's edge — whatever the region found in its input
  arrays (`V`).
-/
import proofs.«149274_j24592982736979_1_alg».proof.Proof.Gen.KernelIdeal.Frame
import proofs.«149274_j24592982736979_1_alg».proof.Proof.EdgeBody
import Idealize.ShloMosaic.Lib.Pipeline.Value

set_option maxRecDepth 16384

noncomputable section

open scoped BigOperators

namespace Cert.KernelIdeal.EdgeArray

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Proof.Spec Cert.Proof

variable (V : (c : Dev nD) → (b : Ref sig .tc) → Buf (Elt Ideal) ((c : Thread nD τ).loc b))

theorem hz : (![0, 0] : Fin 2 → Nat) = fun _ => 0 := funext fun a => by fin_cases a <;> rfl

/-- The message array: entry `(e, c)` is the message entry of edge `e`, from row `e` of the region's edge arrays. -/
def msgs (c : Dev nD) : S600000x128.Idx → Elt Ideal .f32 := fun i =>
  msg (V c main_v20 (ix2 (i 0) (i 1))) (fun a => V c main_v6 (ix2 (i 0) a)) (fun a => V c main_v13 (ix2 (i 0) a))
    (fun k => V c main_v23 (ix2 0 k)) (fun k j => V c main_v21 (ix2 k j)) (fun j c' => V c main_v22 (ix2 j c')) (i 1)

/-- The printed index maps over the grid: the three edge windows and the output move down the rows with the point,
    the weight matrices and the centre row stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point `t` writes back is block `t` of the message array. -/
theorem flushed_eq (c : Dev nD) (t : Fin cfg0.N) :
    (dat0 V c).flushed 6 t = ((cfg0.win 6).blk t).view.read (Elt Ideal) (msgs V c) := by
  show (cfg0.win 6).cut (grid0.coords t) ((dat0 V c).after 6 t) = _
  rw [after0_6]
  unfold out0_6
  rw [View.canon_unit_zero hz]
  simp only [View.ld_unit_zero (S := S3000x3) hz, View.ld_unit_zero (S := S3000x128) hz,
    View.ld_unit_zero (S := S128x128) hz, View.ld_unit_zero (S := S1x128) hz]
  obtain ⟨e00, e01, e10, e11, e20, e21, e30, e31, e40, e41, e50, e51, e60, e61⟩ := idx_facts t
  funext j
  obtain ⟨p, q, rfl⟩ : ∃ (p : Fin 3000) (q : Fin 128), j = ix2 p q := ⟨j 0, j 1, eq_ix2 j⟩
  refine (EdgeBody.payload_apply (iblk0 V c 0 t) (iblk0 V c 1 t) (iblk0 V c 5 t) (iblk0 V c 3 t) (iblk0 V c 4 t)
    (iblk0 V c 2 t) p q).trans ?_
  have ht : t.val < 200 := lt_of_lt_of_eq t.isLt N_0
  have hp : p.val < 3000 := p.isLt
  let e : Fin 600000 := ⟨t.val * 3000 + p.val, by omega⟩
  have hE : ((cfg0.win 6).blk t).view.emb (ix2 p q) = ix2 e q := funext fun d => Fin.ext (by
    match d with
    | ⟨0, _⟩ => show win0_6.index t (0 : Fin 2) * 3000 + 1 * p.val = t.val * 3000 + p.val; omega
    | ⟨1, _⟩ => show win0_6.index t (1 : Fin 2) * 128 + 1 * q.val = q.val; omega)
  show _ = msgs V c (((cfg0.win 6).blk t).view.emb (ix2 p q))
  rw [hE]
  show _ = msg (V c main_v20 (ix2 e q)) (fun a => V c main_v6 (ix2 e a)) (fun a => V c main_v13 (ix2 e a))
    (fun k => V c main_v23 (ix2 0 k)) (fun k j => V c main_v21 (ix2 k j)) (fun j c' => V c main_v22 (ix2 j c')) q
  have h2 : iblk0 V c 2 t (ix2 p q) = V c main_v20 (ix2 e q) := by
    show V c main_v20 (((cfg0.win 2).blk t).view.emb _) = _
    refine congrArg (V c main_v20) (funext fun d => Fin.ext ?_)
    match d with
    | ⟨0, _⟩ => show win0_2.index t (0 : Fin 2) * 3000 + 1 * p.val = t.val * 3000 + p.val; omega
    | ⟨1, _⟩ => show win0_2.index t (1 : Fin 2) * 128 + 1 * q.val = q.val; omega
  have h0 : (fun a : Fin 3 => iblk0 V c 0 t (ix2 p a)) = fun a => V c main_v6 (ix2 e a) := funext fun a => by
    show V c main_v6 (((cfg0.win 0).blk t).view.emb _) = _
    refine congrArg (V c main_v6) (funext fun d => Fin.ext ?_)
    match d with
    | ⟨0, _⟩ => show win0_0.index t (0 : Fin 2) * 3000 + 1 * p.val = t.val * 3000 + p.val; omega
    | ⟨1, _⟩ => show win0_0.index t (1 : Fin 2) * 3 + 1 * a.val = a.val; omega
  have h1 : (fun a : Fin 3 => iblk0 V c 1 t (ix2 p a)) = fun a => V c main_v13 (ix2 e a) := funext fun a => by
    show V c main_v13 (((cfg0.win 1).blk t).view.emb _) = _
    refine congrArg (V c main_v13) (funext fun d => Fin.ext ?_)
    match d with
    | ⟨0, _⟩ => show win0_1.index t (0 : Fin 2) * 3000 + 1 * p.val = t.val * 3000 + p.val; omega
    | ⟨1, _⟩ => show win0_1.index t (1 : Fin 2) * 3 + 1 * a.val = a.val; omega
  have h5 : (fun k : Fin 128 => iblk0 V c 5 t (ix2 0 k)) = fun k => V c main_v23 (ix2 0 k) := funext fun k => by
    show V c main_v23 (((cfg0.win 5).blk t).view.emb _) = _
    refine congrArg (V c main_v23) (funext fun d => Fin.ext ?_)
    match d with
    | ⟨0, _⟩ => show win0_5.index t (0 : Fin 2) * 1 + 1 * 0 = 0; omega
    | ⟨1, _⟩ => show win0_5.index t (1 : Fin 2) * 128 + 1 * k.val = k.val; omega
  have h3 : (fun k j : Fin 128 => iblk0 V c 3 t (ix2 k j)) = fun k j => V c main_v21 (ix2 k j) := funext fun k => funext fun j => by
    show V c main_v21 (((cfg0.win 3).blk t).view.emb _) = _
    refine congrArg (V c main_v21) (funext fun d => Fin.ext ?_)
    match d with
    | ⟨0, _⟩ => show win0_3.index t (0 : Fin 2) * 128 + 1 * k.val = k.val; omega
    | ⟨1, _⟩ => show win0_3.index t (1 : Fin 2) * 128 + 1 * j.val = j.val; omega
  have h4 : (fun j c' : Fin 128 => iblk0 V c 4 t (ix2 j c')) = fun j c' => V c main_v22 (ix2 j c') := funext fun j => funext fun c' => by
    show V c main_v22 (((cfg0.win 4).blk t).view.emb _) = _
    refine congrArg (V c main_v22) (funext fun d => Fin.ext ?_)
    match d with
    | ⟨0, _⟩ => show win0_4.index t (0 : Fin 2) * 128 + 1 * j.val = j.val; omega
    | ⟨1, _⟩ => show win0_4.index t (1 : Fin 2) * 128 + 1 * c'.val = c'.val; omega
  rw [h2, h0, h1, h5, h3, h4]

/-- An index of the message array is in point `t`'s block iff each coordinate is in the block's range on its axis. -/
theorem mem_blk (t : Fin cfg0.N) (i : S600000x128.Idx) :
    i ∈ ((cfg0.win 6).blk t).view.set ↔ ∀ a : Fin 2, win0_6.index t a * S3000x128.size a ≤ (i a).val
      ∧ (i a).val < win0_6.index t a * S3000x128.size a + S3000x128.size a := by
  show i ∈ ((View.whole main_v24).slice (win0_6.rect t)).set ↔ _
  rw [View.set_slice_whole, Rect.mem_set_unit]
  exact Iff.rfl

/-- Every row of the message array lies in the block of the point numbered by the row's quotient by 3000. -/
theorem cover (i : S600000x128.Idx) :
    ∃ t : Fin cfg0.N, (cfg0.win 6).flush t = true ∧ i ∈ ((cfg0.win 6).blk t).view.set := by
  have hi0 : (i 0).val < 600000 := (i 0).isLt
  have hi1 : (i 1).val < 128 := (i 1).isLt
  have hlt : (i 0).val / 3000 < cfg0.N := lt_of_lt_of_eq (by omega : (i 0).val / 3000 < 200) N_0.symm
  obtain ⟨t, ht⟩ : ∃ t : Fin cfg0.N, t.val = (i 0).val / 3000 := ⟨⟨_, hlt⟩, rfl⟩
  obtain ⟨-, -, -, -, -, -, -, -, -, -, -, -, e60, e61⟩ := idx_facts t
  refine ⟨t, flush0_6 t, ?_⟩
  rw [mem_blk]
  intro a
  match a with
  | ⟨0, _⟩ =>
    show win0_6.index t (0 : Fin 2) * 3000 ≤ (i 0).val ∧ (i 0).val < win0_6.index t (0 : Fin 2) * 3000 + 3000
    omega
  | ⟨1, _⟩ =>
    show win0_6.index t (1 : Fin 2) * 128 ≤ (i 1).val ∧ (i 1).val < win0_6.index t (1 : Fin 2) * 128 + 128
    omega

/-- After the edge pipeline its output array is the message array of the input arrays it found. -/
theorem final (c : Dev nD) : (dat0 V c).arrAt 6 cfg0.N = msgs V c :=
  (dat0 V c).arrAt_eq_of_cover 6 (msgs V c) (fun t _ => flushed_eq V c t) (cover)

end Cert.KernelIdeal.EdgeArray

end
-- ==== Proof.NodeBody.lean ====
/-
  The node kernel's stored value, read at an index.

  The body loads a block of 5000 aggregated feature rows (5000 × 128), the two weight matrices (128 × 128, inputs first)
  and the two bias rows (1 × 128), and stores one 5000 × 128 block. Entry `(p, c)` depends on row `p` of the feature
  block only: it is the update entry `Spec.upd` of that row.
-/
import proofs.«149274_j24592982736979_1_alg».proof.Proof.Gen.KernelIdeal.Skeleton
import proofs.«149274_j24592982736979_1_alg».proof.Proof.Spec
import proofs.«149274_j24592982736979_1_alg».proof.Proof.Layers
import Idealize.ShloMosaic.Lib.ValueLayout
import Idealize.ShloMosaic.Lib.Pipeline.Value

noncomputable section

open scoped BigOperators

namespace Cert.KernelIdeal.NodeBody

open Idealize.ShloMosaic Idealize.ShloMosaic.ValueIdx Cert.KernelIdeal Cert.KernelIdeal.Gen Cert.Proof.Spec Cert.Proof

/-- Entry `(p, c)` of the stored block is the update entry of the block's row `p`. -/
theorem payload_apply (v0 : Vec Ideal S5000x128 .f32) (v2 : Vec Ideal S128x128 .f32) (v7 : Vec Ideal S1x128 .f32)
    (v13 : Vec Ideal S128x128 .f32) (v18 : Vec Ideal S1x128 .f32) (p : Fin 5000) (c : Fin 128) :
    k1_pay1 v0 v2 v7 v13 v18 (ix2 p c)
      = upd (fun k => v0 (ix2 p k)) (fun k j => v2 (ix2 k j)) (fun j c => v13 (ix2 j c))
          (fun j => v7 (ix2 0 j)) (fun c => v18 (ix2 0 c)) c := by
  unfold k1_pay1 upd
  simp only [shapeCast_self]
  refine (addf_apply _ _ _).trans (congrArg₂ (· + ·) ?_ (broadcastTo_1b_ab_apply v18 broadcasts_S1x128_S5000x128 p c))
  refine (Layers.matmul_bf16_apply _ rfl _ v13 _ _ p c).trans ?_
  refine Finset.sum_congr rfl fun j _ => congrArg (· * v13 (ix2 j c)) ?_
  refine (Layers.relu_apply _ _).trans (congrArg (max · 0) ?_)
  refine (addf_apply _ _ _).trans (congrArg₂ (· + ·) ?_ (broadcastTo_1b_ab_apply v7 broadcasts_S1x128_S5000x128 p j))
  exact Layers.matmul_bf16_apply _ rfl v0 v2 _ _ p j

end Cert.KernelIdeal.NodeBody

end
-- ==== Proof.NodeArray.lean ====
/-
  The node pipeline's output array as one function of its input arrays.

  The pipeline has 10 grid points; point `t` reads rows `5000 t … 5000 t + 4999` of the aggregated feature array, the
  whole of the two weight matrices and of the two bias rows, and writes rows `5000 t … 5000 t + 4999` of the result. The
  blocks tile the 50000 rows, so after the run the result array is, entry by entry, the update entry of that row —
  whatever the region found in its input arrays (`V`).
-/
import proofs.«149274_j24592982736979_1_alg».proof.Proof.Gen.KernelIdeal.Frame
import proofs.«149274_j24592982736979_1_alg».proof.Proof.NodeBody
import Idealize.ShloMosaic.Lib.Pipeline.Value

set_option maxRecDepth 16384

noncomputable section

open scoped BigOperators

namespace Cert.KernelIdeal.NodeArray

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Proof.Spec Cert.Proof

variable (V : (c : Dev nD) → (b : Ref sig .tc) → Buf (Elt Ideal) ((c : Thread nD τ).loc b))

theorem hz : (![0, 0] : Fin 2 → Nat) = fun _ => 0 := funext fun a => by fin_cases a <;> rfl

/-- The result array: entry `(r, c)` is the update entry of row `r` of the region's aggregated feature array. -/
def outs (c : Dev nD) : S50000x128.Idx → Elt Ideal .f32 := fun i =>
  upd (fun k => V c main_v27 (ix2 (i 0) k)) (fun k j => V c main_v28 (ix2 k j)) (fun j c' => V c main_v29 (ix2 j c'))
    (fun j => V c main_v30 (ix2 0 j)) (fun c' => V c main_v31 (ix2 0 c')) (i 1)

/-- The printed index maps over the grid: the feature window and the output move down the rows with the point, the
    weight matrices and the bias rows stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the result array. -/
theorem flushed_eq (c : Dev nD) (t : Fin cfg1.N) :
    (dat1 V c).flushed 5 t = ((cfg1.win 5).blk t).view.read (Elt Ideal) (outs V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  obtain ⟨p, q, rfl⟩ : ∃ (p : Fin 5000) (q : Fin 128), j = ix2 p q := ⟨j 0, j 1, eq_ix2 j⟩
  refine (NodeBody.payload_apply (iblk1 V c 0 t) (iblk1 V c 1 t) (iblk1 V c 2 t) (iblk1 V c 3 t) (iblk1 V c 4 t) p q).trans ?_
  have ht : t.val < 10 := lt_of_lt_of_eq t.isLt N_1
  have hp : p.val < 5000 := p.isLt
  let r : Fin 50000 := ⟨t.val * 5000 + p.val, by omega⟩
  have hE : ((cfg1.win 5).blk t).view.emb (ix2 p q) = ix2 r q := funext fun d => Fin.ext (by
    match d with
    | ⟨0, _⟩ => show win1_5.index t (0 : Fin 2) * 5000 + 1 * p.val = t.val * 5000 + p.val; omega
    | ⟨1, _⟩ => show win1_5.index t (1 : Fin 2) * 128 + 1 * q.val = q.val; omega)
  show _ = outs V c (((cfg1.win 5).blk t).view.emb (ix2 p q))
  rw [hE]
  show _ = upd (fun k => V c main_v27 (ix2 r k)) (fun k j => V c main_v28 (ix2 k j)) (fun j c' => V c main_v29 (ix2 j c'))
    (fun j => V c main_v30 (ix2 0 j)) (fun c' => V c main_v31 (ix2 0 c')) q
  have h0 : (fun k : Fin 128 => iblk1 V c 0 t (ix2 p k)) = fun k => V c main_v27 (ix2 r k) := funext fun k => by
    show V c main_v27 (((cfg1.win 0).blk t).view.emb _) = _
    refine congrArg (V c main_v27) (funext fun d => Fin.ext ?_)
    match d with
    | ⟨0, _⟩ => show win1_0.index t (0 : Fin 2) * 5000 + 1 * p.val = t.val * 5000 + p.val; omega
    | ⟨1, _⟩ => show win1_0.index t (1 : Fin 2) * 128 + 1 * k.val = k.val; omega
  have h1 : (fun k j : Fin 128 => iblk1 V c 1 t (ix2 k j)) = fun k j => V c main_v28 (ix2 k j) := funext fun k => funext fun j => by
    show V c main_v28 (((cfg1.win 1).blk t).view.emb _) = _
    refine congrArg (V c main_v28) (funext fun d => Fin.ext ?_)
    match d with
    | ⟨0, _⟩ => show win1_1.index t (0 : Fin 2) * 128 + 1 * k.val = k.val; omega
    | ⟨1, _⟩ => show win1_1.index t (1 : Fin 2) * 128 + 1 * j.val = j.val; omega
  have h3 : (fun j c' : Fin 128 => iblk1 V c 3 t (ix2 j c')) = fun j c' => V c main_v29 (ix2 j c') := funext fun j => funext fun c' => by
    show V c main_v29 (((cfg1.win 3).blk t).view.emb _) = _
    refine congrArg (V c main_v29) (funext fun d => Fin.ext ?_)
    match d with
    | ⟨0, _⟩ => show win1_3.index t (0 : Fin 2) * 128 + 1 * j.val = j.val; omega
    | ⟨1, _⟩ => show win1_3.index t (1 : Fin 2) * 128 + 1 * c'.val = c'.val; omega
  have h2 : (fun j : Fin 128 => iblk1 V c 2 t (ix2 0 j)) = fun j => V c main_v30 (ix2 0 j) := funext fun j => by
    show V c main_v30 (((cfg1.win 2).blk t).view.emb _) = _
    refine congrArg (V c main_v30) (funext fun d => Fin.ext ?_)
    match d with
    | ⟨0, _⟩ => show win1_2.index t (0 : Fin 2) * 1 + 1 * 0 = 0; omega
    | ⟨1, _⟩ => show win1_2.index t (1 : Fin 2) * 128 + 1 * j.val = j.val; omega
  have h4 : (fun c' : Fin 128 => iblk1 V c 4 t (ix2 0 c')) = fun c' => V c main_v31 (ix2 0 c') := funext fun c' => by
    show V c main_v31 (((cfg1.win 4).blk t).view.emb _) = _
    refine congrArg (V c main_v31) (funext fun d => Fin.ext ?_)
    match d with
    | ⟨0, _⟩ => show win1_4.index t (0 : Fin 2) * 1 + 1 * 0 = 0; omega
    | ⟨1, _⟩ => show win1_4.index t (1 : Fin 2) * 128 + 1 * c'.val = c'.val; omega
  rw [h0, h1, h3, h2, h4]

/-- An index of the result array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v32).slice (win1_5.rect t)).set ↔ _
  rw [View.set_slice_whole, Rect.mem_set_unit]
  exact Iff.rfl

/-- Every row of the result array lies in the block of the point numbered by the row's quotient by 5000. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hlt : (i 0).val / 5000 < cfg1.N := lt_of_lt_of_eq (by omega : (i 0).val / 5000 < 10) N_1.symm
  obtain ⟨t, ht⟩ : ∃ t : Fin cfg1.N, t.val = (i 0).val / 5000 := ⟨⟨_, hlt⟩, rfl⟩
  obtain ⟨-, -, -, -, -, -, -, -, -, -, e50, e51⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- After the node pipeline its output array is the result array of the input arrays it found. -/
theorem final (c : Dev nD) : (dat1 V c).arrAt 5 cfg1.N = outs V c :=
  (dat1 V c).arrAt_eq_of_cover 5 (outs V c) (fun t _ => flushed_eq V c t) (cover)

end Cert.KernelIdeal.NodeArray

end
-- ==== Proof.HostSide.lean ====
/-
  What the host code around the two pipelines leaves in the buffers the pipelines read.

  Before the edge pipeline the host gathers the endpoint coordinates and the source features of every edge, transposes
  the two filter matrices and gives the centre vector a leading unit axis. Between the pipelines it scatter-adds the
  message array into the zero array along the destination indices, transposes the two update matrices and gives the two
  bias vectors a leading unit axis. The gathers, the transposes and the scatter-add are, term for term, the reference's
  own operations on the same arguments.
-/
import proofs.«149274_j24592982736979_1_alg».proof.Proof.Gen.KernelIdeal.Frame
import proofs.«149274_j24592982736979_1_alg».proof.Proof.Gen.ReferenceIdeal.Read

set_option maxRecDepth 16384

noncomputable section

namespace Cert.KernelIdeal.HostSide

open Idealize.ShloMosaic Idealize.ShloMosaic.TcCoe Idealize.ShloMosaic.StableHlo
open Idealize.SL Idealize.SL.Sem
open Cert.KernelIdeal Cert.KernelIdeal.Gen

variable (m : (ℓ : Loc nD τ sig) → Buf (Elt Ideal) ℓ) (ρ : Dev nD → PrngReg)

set_option maxHeartbeats 2000000 in
/-- The gathered source coordinates. -/
theorem V1_v6 (c : Dev nD) : V1 m ρ c main_v6
    = Cert.ReferenceIdeal.Read.val_main_v11 (F := Ideal) (m ((c : Thread nD τ).loc main_arg1)) (m ((c : Thread nD τ).loc main_arg3)) := by
  show StableHlo.after hostOps0 (W0 m ρ c) (Proc.devRef .tc main_v6) = _
  after_results_simp
  rfl

set_option maxHeartbeats 2000000 in
/-- The gathered destination coordinates. -/
theorem V1_v13 (c : Dev nD) : V1 m ρ c main_v13
    = Cert.ReferenceIdeal.Read.val_main_v18 (F := Ideal) (m ((c : Thread nD τ).loc main_arg1)) (m ((c : Thread nD τ).loc main_arg4)) := by
  show StableHlo.after hostOps0 (W0 m ρ c) (Proc.devRef .tc main_v13) = _
  after_results_simp
  rfl

set_option maxHeartbeats 2000000 in
/-- The gathered source features. -/
theorem V1_v20 (c : Dev nD) : V1 m ρ c main_v20
    = Cert.ReferenceIdeal.Read.val_main_v42 (F := Ideal) (m ((c : Thread nD τ).loc main_arg0)) (m ((c : Thread nD τ).loc main_arg3)) := by
  show StableHlo.after hostOps0 (W0 m ρ c) (Proc.devRef .tc main_v20) = _
  after_results_simp
  rfl

set_option maxHeartbeats 2000000 in
/-- The first filter matrix, transposed. -/
theorem V1_v21 (c : Dev nD) : V1 m ρ c main_v21
    = Cert.ReferenceIdeal.Read.val_main_v30 (F := Ideal) (m ((c : Thread nD τ).loc main_arg8)) := by
  show StableHlo.after hostOps0 (W0 m ρ c) (Proc.devRef .tc main_v21) = _
  after_results_simp
  rfl

set_option maxHeartbeats 2000000 in
/-- The second filter matrix, transposed. -/
theorem V1_v22 (c : Dev nD) : V1 m ρ c main_v22
    = Cert.ReferenceIdeal.Read.val_main_v33 (F := Ideal) (m ((c : Thread nD τ).loc main_arg9)) := by
  show StableHlo.after hostOps0 (W0 m ρ c) (Proc.devRef .tc main_v22) = _
  after_results_simp
  rfl

set_option maxHeartbeats 2000000 in
/-- The centre vector as a row. -/
theorem V1_v23 (c : Dev nD) : V1 m ρ c main_v23
    = shapeCast S1x128 (m ((c : Thread nD τ).loc main_arg7)) shapeCasts_S128_S1x128 := by
  show StableHlo.after hostOps0 (W0 m ρ c) (Proc.devRef .tc main_v23) = _
  after_results_simp
  rfl

end Cert.KernelIdeal.HostSide

end
-- ==== Proof.RefEdge.lean ====
/-
  The reference's edge stage, read at an index.

  The reference computes over all 600000 edges at once: the gathered endpoint coordinates are subtracted, squared and
  summed over the three coordinates, the square root is taken, the distance column is spread against the centre row, and
  the radial basis expansion goes through two products with transposed weight matrices, each followed by a ReLU; the
  gathered source features multiply the result. Entry `(e, c)` of that array is the message entry `Spec.msg` of edge
  `e`, read from row `e` of the three gathered arrays. The gathers and the transposes are never opened: they are the same
  terms in the kernel's host code.
-/
import proofs.«149274_j24592982736979_1_alg».proof.Proof.Gen.ReferenceIdeal.Read
import proofs.«149274_j24592982736979_1_alg».proof.Proof.Spec

noncomputable section

open scoped BigOperators

namespace Cert.ReferenceIdeal.RefEdge

open Idealize.ShloMosaic Idealize.ShloMosaic.ValueIdx Cert.ReferenceIdeal Cert.ReferenceIdeal.Read Cert.Proof.Spec Cert.Proof

variable (x0 : (⟨S50000x128, .f32⟩ : BufTy).Contents (Elt Ideal)) (x1 : (⟨S50000x3, .f32⟩ : BufTy).Contents (Elt Ideal))
  (x3 x4 : (⟨S600000, .i32⟩ : BufTy).Contents (Elt Ideal)) (x7 : (⟨S128, .f32⟩ : BufTy).Contents (Elt Ideal))
  (x8 x9 : (⟨S128x128, .f32⟩ : BufTy).Contents (Elt Ideal))

/-- The norm of edge `e`'s coordinate difference is the distance of its two gathered endpoints. -/
theorem dist_apply (e : Fin 600000) :
    val_main_v20 (F := Ideal) x1 x3 x4 (ix1 e)
      = Spec.dist (fun a => val_main_v11 (F := Ideal) x1 x3 (ix2 e a)) (fun a => val_main_v18 (F := Ideal) x1 x4 (ix2 e a)) := by
  rw [val_main_v20_apply, val_main_call0_v1_apply]
  show Ideal.sqrt (Ideal.ofBits .f32 0x00000000#32 + ∑ k : Fin 3, _) = _
  rw [Ideal.ofBits_zero_f32, zero_add]
  unfold Spec.dist
  refine congrArg Ideal.sqrt (Finset.sum_congr rfl fun k _ => ?_)
  have hi : idx_main_call0_v1 (ix1 e) k = ix2 e k := funext fun a => by
    match a with
    | ⟨0, _⟩ => rfl
    | ⟨1, _⟩ => rfl
  rw [hi]
  rfl

/-- Entry `(e, k)` of the radial basis expansion: basis function `k` of edge `e`'s distance. -/
theorem rbf_apply (e : Fin 600000) (k : Fin 128) :
    val_main_v29 (F := Ideal) x1 x3 x4 x7 (ix2 e k)
      = rbf (Spec.dist (fun a => val_main_v11 (F := Ideal) x1 x3 (ix2 e a)) (fun a => val_main_v18 (F := Ideal) x1 x4 (ix2 e a)))
          (x7 (ix1 k)) := by
  have h23 : val_main_v23 (F := Ideal) x1 x3 x4 (ix2 e k)
      = Spec.dist (fun a => val_main_v11 (F := Ideal) x1 x3 (ix2 e a)) (fun a => val_main_v18 (F := Ideal) x1 x4 (ix2 e a)) := by
    rw [val_main_v23_apply, val_main_v21_apply]
    have hi : idx_main_v21 (idx_main_v23 (ix2 e k)) = ix1 e := funext fun a => by
      match a with
      | ⟨0, _⟩ => rfl
    rw [hi]
    exact dist_apply x1 x3 x4 e
  have h24 : val_main_v24 (F := Ideal) x7 (ix2 e k) = x7 (ix1 k) := by
    rw [val_main_v24_apply, val_main_v22_apply]
    exact congrArg x7 (funext fun a => by
      match a with
      | ⟨0, _⟩ => rfl)
  rw [val_main_v29_apply, val_main_v28_apply, val_main_v26_apply, val_main_v25_apply, h23, h24, val_main_v27_apply,
    val_main_cst_apply]
  rfl

/-- Entry `(e, j)` after the first layer. -/
theorem h1_apply (e : Fin 600000) (j : Fin 128) :
    val_main_v32 (F := Ideal) x1 x3 x4 x7 x8 (ix2 e j)
      = layer (fun k => rbf (Spec.dist (fun a => val_main_v11 (F := Ideal) x1 x3 (ix2 e a)) (fun a => val_main_v18 (F := Ideal) x1 x4 (ix2 e a))) (x7 (ix1 k)))
          (fun k => val_main_v30 (F := Ideal) x8 (ix2 k j)) := by
  show max (val_main_v31 (F := Ideal) x1 x3 x4 x7 x8 (ix2 e j)) (val_main_call1_v0 (F := Ideal) (ix2 e j)) = _
  rw [val_main_v31_apply, val_main_call1_v0_apply]
  show max _ (Ideal.ofBits .f32 0x00000000#32) = _
  rw [Ideal.ofBits_zero_f32]
  unfold layer
  refine congrArg (max · 0) (Finset.sum_congr rfl fun k _ => ?_)
  have hl : lidx_main_v31 (ix2 e j) k = ix2 e k := funext fun a => by
    match a with
    | ⟨0, _⟩ => rfl
    | ⟨1, _⟩ => rfl
  have hr : ridx_main_v31 (ix2 e j) k = ix2 k j := funext fun a => by
    match a with
    | ⟨0, _⟩ => rfl
    | ⟨1, _⟩ => rfl
  rw [hl, hr, rbf_apply]

/-- Entry `(e, c)` after the second layer. -/
theorem h2_apply (e : Fin 600000) (c : Fin 128) :
    val_main_v35 (F := Ideal) x1 x3 x4 x7 x8 x9 (ix2 e c)
      = layer (fun j => val_main_v32 (F := Ideal) x1 x3 x4 x7 x8 (ix2 e j)) (fun j => val_main_v33 (F := Ideal) x9 (ix2 j c)) := by
  show max (val_main_v34 (F := Ideal) x1 x3 x4 x7 x8 x9 (ix2 e c)) (val_main_call2_v0 (F := Ideal) (ix2 e c)) = _
  rw [val_main_v34_apply, val_main_call2_v0_apply]
  show max _ (Ideal.ofBits .f32 0x00000000#32) = _
  rw [Ideal.ofBits_zero_f32]
  unfold layer
  refine congrArg (max · 0) (Finset.sum_congr rfl fun k _ => ?_)
  have hl : lidx_main_v34 (ix2 e c) k = ix2 e k := funext fun a => by
    match a with
    | ⟨0, _⟩ => rfl
    | ⟨1, _⟩ => rfl
  have hr : ridx_main_v34 (ix2 e c) k = ix2 k c := funext fun a => by
    match a with
    | ⟨0, _⟩ => rfl
    | ⟨1, _⟩ => rfl
  rw [hl, hr]

/-- Entry `(e, c)` of the reference's message array is the message entry of edge `e`. -/
theorem msg_apply (e : Fin 600000) (c : Fin 128) :
    val_main_v43 (F := Ideal) x0 x1 x3 x4 x7 x8 x9 (ix2 e c)
      = msg (val_main_v42 (F := Ideal) x0 x3 (ix2 e c)) (fun a => val_main_v11 (F := Ideal) x1 x3 (ix2 e a))
          (fun a => val_main_v18 (F := Ideal) x1 x4 (ix2 e a)) (fun k => x7 (ix1 k))
          (fun k j => val_main_v30 (F := Ideal) x8 (ix2 k j)) (fun j c => val_main_v33 (F := Ideal) x9 (ix2 j c)) c := by
  show val_main_v42 (F := Ideal) x0 x3 (ix2 e c) * val_main_v35 (F := Ideal) x1 x3 x4 x7 x8 x9 (ix2 e c) = _
  rw [h2_apply]
  unfold msg
  refine congrArg (val_main_v42 (F := Ideal) x0 x3 (ix2 e c) * ·) ?_
  exact congrArg (fun f => layer f fun j => val_main_v33 (F := Ideal) x9 (ix2 j c)) (funext fun j => h1_apply x1 x3 x4 x7 x8 e j)

end Cert.ReferenceIdeal.RefEdge

end
-- ==== Proof.RefNode.lean ====
/-
  The reference's node stage, read at an index.

  From the aggregated feature array (the scatter-add of the messages, never opened here) the reference takes a product
  with a transposed weight matrix, adds a bias row, applies a ReLU, and repeats the product and the bias without the
  ReLU. Entry `(r, c)` of the result is the update entry `Spec.upd` of row `r` of the aggregated array.
-/
import proofs.«149274_j24592982736979_1_alg».proof.Proof.Gen.ReferenceIdeal.Read
import proofs.«149274_j24592982736979_1_alg».proof.Proof.Spec

noncomputable section

open scoped BigOperators

namespace Cert.ReferenceIdeal.RefNode

open Idealize.ShloMosaic Idealize.ShloMosaic.ValueIdx Cert.ReferenceIdeal Cert.ReferenceIdeal.Read Cert.Proof.Spec Cert.Proof

variable (x0 : (⟨S50000x128, .f32⟩ : BufTy).Contents (Elt Ideal)) (x1 : (⟨S50000x3, .f32⟩ : BufTy).Contents (Elt Ideal))
  (x3 x4 : (⟨S600000, .i32⟩ : BufTy).Contents (Elt Ideal)) (x7 : (⟨S128, .f32⟩ : BufTy).Contents (Elt Ideal))
  (x8 x9 x10 : (⟨S128x128, .f32⟩ : BufTy).Contents (Elt Ideal)) (x11 : (⟨S128, .f32⟩ : BufTy).Contents (Elt Ideal))
  (x12 : (⟨S128x128, .f32⟩ : BufTy).Contents (Elt Ideal)) (x13 : (⟨S128, .f32⟩ : BufTy).Contents (Elt Ideal))

/-- The first bias, spread over the rows, at `(r, j)` is its entry `j`. -/
theorem bias1_apply (r : Fin 50000) (j : Fin 128) : val_main_v50 (F := Ideal) x11 (ix2 r j) = x11 (ix1 j) := by
  rw [val_main_v50_apply, val_main_v49_apply]
  exact congrArg x11 (funext fun a => by
    match a with
    | ⟨0, _⟩ => rfl)

/-- The second bias, spread over the rows, at `(r, c)` is its entry `c`. -/
theorem bias2_apply (r : Fin 50000) (c : Fin 128) : val_main_v56 (F := Ideal) x13 (ix2 r c) = x13 (ix1 c) := by
  rw [val_main_v56_apply, val_main_v55_apply]
  exact congrArg x13 (funext fun a => by
    match a with
    | ⟨0, _⟩ => rfl)

/-- Entry `(r, j)` after the first affine layer and its ReLU. -/
theorem hidden_apply (r : Fin 50000) (j : Fin 128) :
    val_main_v52 (F := Ideal) x0 x1 x3 x4 x7 x8 x9 x10 x11 (ix2 r j)
      = max ((∑ k : Fin 128, val_main_v46 (F := Ideal) x0 x1 x3 x4 x7 x8 x9 (ix2 r k) * val_main_v47 (F := Ideal) x10 (ix2 k j))
          + x11 (ix1 j)) 0 := by
  show max (val_main_v48 (F := Ideal) x0 x1 x3 x4 x7 x8 x9 x10 (ix2 r j) + val_main_v50 (F := Ideal) x11 (ix2 r j))
      (val_main_call3_v0 (F := Ideal) (ix2 r j)) = _
  rw [val_main_call3_v0_apply, bias1_apply, val_main_v48_apply]
  show max _ (Ideal.ofBits .f32 0x00000000#32) = _
  rw [Ideal.ofBits_zero_f32]
  refine congrArg (max · 0) (congrArg (· + x11 (ix1 j)) (Finset.sum_congr rfl fun k _ => ?_))
  have hl : lidx_main_v48 (ix2 r j) k = ix2 r k := funext fun a => by
    match a with
    | ⟨0, _⟩ => rfl
    | ⟨1, _⟩ => rfl
  have hr : ridx_main_v48 (ix2 r j) k = ix2 k j := funext fun a => by
    match a with
    | ⟨0, _⟩ => rfl
    | ⟨1, _⟩ => rfl
  rw [hl, hr]

/-- Entry `(r, c)` of the reference's result is the update entry of row `r` of the aggregated array. -/
theorem out_apply (r : Fin 50000) (c : Fin 128) :
    val_main_v57 (F := Ideal) x0 x1 x3 x4 x7 x8 x9 x10 x11 x12 x13 (ix2 r c)
      = upd (fun k => val_main_v46 (F := Ideal) x0 x1 x3 x4 x7 x8 x9 (ix2 r k)) (fun k j => val_main_v47 (F := Ideal) x10 (ix2 k j))
          (fun j c => val_main_v53 (F := Ideal) x12 (ix2 j c)) (fun j => x11 (ix1 j)) (fun c => x13 (ix1 c)) c := by
  show val_main_v54 (F := Ideal) x0 x1 x3 x4 x7 x8 x9 x10 x11 x12 (ix2 r c) + val_main_v56 (F := Ideal) x13 (ix2 r c) = _
  rw [bias2_apply, val_main_v54_apply]
  unfold upd
  refine congrArg (· + x13 (ix1 c)) (Finset.sum_congr rfl fun j _ => ?_)
  have hl : lidx_main_v54 (ix2 r c) j = ix2 r j := funext fun a => by
    match a with
    | ⟨0, _⟩ => rfl
    | ⟨1, _⟩ => rfl
  have hr : ridx_main_v54 (ix2 r c) j = ix2 j c := funext fun a => by
    match a with
    | ⟨0, _⟩ => rfl
    | ⟨1, _⟩ => rfl
  rw [hl, hr, hidden_apply]

end Cert.ReferenceIdeal.RefNode

end
-- ==== Proof.Bridge.lean ====
/-
  The kernel's result array is the reference's result, as one array.

  Walking the kernel's fold of buffer contents: the edge pipeline's output array is the message array of the gathered
  arrays, which entry by entry is the reference's message array; the host's scatter-add of it along the destination
  indices is therefore the reference's aggregated array (the same operation on the same operands); the node pipeline's
  output array is the update of that aggregated array row by row, which entry by entry is the reference's result. The
  centre vector and the two bias vectors reach the kernel as rows with a leading unit axis, where the reference spreads
  the vectors themselves: at an index both read the vector's entry.
-/
import proofs.«149274_j24592982736979_1_alg».proof.Proof.EdgeArray
import proofs.«149274_j24592982736979_1_alg».proof.Proof.NodeArray
import proofs.«149274_j24592982736979_1_alg».proof.Proof.HostSide
import proofs.«149274_j24592982736979_1_alg».proof.Proof.RefEdge
import proofs.«149274_j24592982736979_1_alg».proof.Proof.RefNode
import Idealize.ShloMosaic.Lib.ValueLayout

set_option maxRecDepth 16384

noncomputable section

namespace Cert.KernelIdeal.Bridge

open Idealize.ShloMosaic Idealize.ShloMosaic.TcCoe Idealize.ShloMosaic.StableHlo Idealize.ShloMosaic.ValueIdx
open Idealize.SL Idealize.SL.Sem
open Cert.KernelIdeal Cert.KernelIdeal.Gen Cert.Proof.Spec Cert.Proof

variable (m : (ℓ : Loc nD τ sig) → Buf (Elt Ideal) ℓ) (ρ : Dev nD → PrngReg)

/-- A vector given a leading unit axis, read at `(0, k)`, is the vector's entry `k`. -/
theorem row_apply (x : (⟨S128, .f32⟩ : BufTy).Contents (Elt Ideal)) :
    (fun k : Fin 128 => shapeCast S1x128 x shapeCasts_S128_S1x128 (ix2 0 k)) = fun k => x (ix1 k) :=
  funext fun k => shapeCast_a_1a_apply x shapeCasts_S128_S1x128 0 k

/-- The edge pipeline leaves the reference's message array. -/
theorem msgs_eq (c : Dev nD) : W2 m ρ c (Proc.devRef .tc main_v24)
    = Cert.ReferenceIdeal.Read.val_main_v43 (F := Ideal) (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) (m ((c : Thread nD τ).loc main_arg9)) := by
  refine (W2_arr m ρ c 6).trans ?_
  rw [EdgeArray.final]
  funext i
  obtain ⟨e, q, rfl⟩ : ∃ (e : Fin 600000) (q : Fin 128), i = ix2 e q := ⟨i 0, i 1, eq_ix2 i⟩
  refine Eq.trans ?_ (Cert.ReferenceIdeal.RefEdge.msg_apply _ _ _ _ _ _ _ e q).symm
  show msg (V1 m ρ c main_v20 (ix2 e q)) (fun a => V1 m ρ c main_v6 (ix2 e a)) (fun a => V1 m ρ c main_v13 (ix2 e a))
    (fun k => V1 m ρ c main_v23 (ix2 0 k)) (fun k j => V1 m ρ c main_v21 (ix2 k j)) (fun j c' => V1 m ρ c main_v22 (ix2 j c')) q = _
  rw [HostSide.V1_v6, HostSide.V1_v13, HostSide.V1_v20, HostSide.V1_v21, HostSide.V1_v22, HostSide.V1_v23, row_apply]

set_option maxHeartbeats 2000000 in
/-- Argument 4 is as launched when the second host stretch reads it. -/
theorem W2_arg4 (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  after_results_simp

set_option maxHeartbeats 2000000 in
/-- Argument 10 is as launched when the second host stretch reads it. -/
theorem W2_arg10 (c : Dev nD) : W2 m ρ c (Proc.devRef .tc main_arg10) = m ((c : Thread nD τ).loc main_arg10) := by
  refine (W2_of_ne m ρ c main_arg10 (by decide)).trans ?_
  show StableHlo.after hostOps0 (W0 m ρ c) (Proc.devRef .tc main_arg10) = _
  after_results_simp

set_option maxHeartbeats 2000000 in
/-- Argument 11 is as launched when the second host stretch reads it. -/
theorem W2_arg11 (c : Dev nD) : W2 m ρ c (Proc.devRef .tc main_arg11) = m ((c : Thread nD τ).loc main_arg11) := by
  refine (W2_of_ne m ρ c main_arg11 (by decide)).trans ?_
  show StableHlo.after hostOps0 (W0 m ρ c) (Proc.devRef .tc main_arg11) = _
  after_results_simp

set_option maxHeartbeats 2000000 in
/-- Argument 12 is as launched when the second host stretch reads it. -/
theorem W2_arg12 (c : Dev nD) : W2 m ρ c (Proc.devRef .tc main_arg12) = m ((c : Thread nD τ).loc main_arg12) := by
  refine (W2_of_ne m ρ c main_arg12 (by decide)).trans ?_
  show StableHlo.after hostOps0 (W0 m ρ c) (Proc.devRef .tc main_arg12) = _
  after_results_simp

set_option maxHeartbeats 2000000 in
/-- Argument 13 is as launched when the second host stretch reads it. -/
theorem W2_arg13 (c : Dev nD) : W2 m ρ c (Proc.devRef .tc main_arg13) = m ((c : Thread nD τ).loc main_arg13) := by
  refine (W2_of_ne m ρ c main_arg13 (by decide)).trans ?_
  show StableHlo.after hostOps0 (W0 m ρ c) (Proc.devRef .tc main_arg13) = _
  after_results_simp

set_option maxHeartbeats 2000000 in
/-- The aggregated feature array the node pipeline reads is the reference's. -/
theorem agg_eq (c : Dev nD) : V3 m ρ c main_v27
    = Cert.ReferenceIdeal.Read.val_main_v46 (F := Ideal) (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) (m ((c : Thread nD τ).loc main_arg9)) := by
  show StableHlo.after hostOps1 (W2 m ρ c) (Proc.devRef .tc main_v27) = _
  after_results_simp
  rw [msgs_eq, W2_arg4]
  rfl

/-- The first update matrix, transposed. -/
theorem V3_v28 (c : Dev nD) : V3 m ρ c main_v28 = Cert.ReferenceIdeal.Read.val_main_v47 (F := Ideal) (m ((c : Thread nD τ).loc main_arg10)) := by
  show StableHlo.after hostOps1 (W2 m ρ c) (Proc.devRef .tc main_v28) = _
  after_results_simp
  rw [W2_arg10]
  rfl

/-- The second update matrix, transposed. -/
theorem V3_v29 (c : Dev nD) : V3 m ρ c main_v29 = Cert.ReferenceIdeal.Read.val_main_v53 (F := Ideal) (m ((c : Thread nD τ).loc main_arg12)) := by
  show StableHlo.after hostOps1 (W2 m ρ c) (Proc.devRef .tc main_v29) = _
  after_results_simp
  rw [W2_arg12]
  rfl

/-- The first bias vector as a row. -/
theorem V3_v30 (c : Dev nD) : V3 m ρ c main_v30 = shapeCast S1x128 (m ((c : Thread nD τ).loc main_arg11)) shapeCasts_S128_S1x128 := by
  show StableHlo.after hostOps1 (W2 m ρ c) (Proc.devRef .tc main_v30) = _
  after_results_simp
  rw [W2_arg11]
  rfl

/-- The second bias vector as a row. -/
theorem V3_v31 (c : Dev nD) : V3 m ρ c main_v31 = shapeCast S1x128 (m ((c : Thread nD τ).loc main_arg13)) shapeCasts_S128_S1x128 := by
  show StableHlo.after hostOps1 (W2 m ρ c) (Proc.devRef .tc main_v31) = _
  after_results_simp
  rw [W2_arg13]
  rfl

/-- The kernel's result array is the reference's result of the same arguments. -/
theorem out_eq (c : Dev nD) : W4 m ρ c (Proc.devRef .tc main_v32)
    = Cert.ReferenceIdeal.Read.val_main_v57 (F := Ideal) (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W4_arr m ρ c 5).trans ?_
  rw [NodeArray.final]
  funext i
  obtain ⟨r, q, rfl⟩ : ∃ (r : Fin 50000) (q : Fin 128), i = ix2 r q := ⟨i 0, i 1, eq_ix2 i⟩
  refine Eq.trans ?_ (Cert.ReferenceIdeal.RefNode.out_apply _ _ _ _ _ _ _ _ _ _ _ r q).symm
  show upd (fun k => V3 m ρ c main_v27 (ix2 r k)) (fun k j => V3 m ρ c main_v28 (ix2 k j)) (fun j c' => V3 m ρ c main_v29 (ix2 j c'))
    (fun j => V3 m ρ c main_v30 (ix2 0 j)) (fun c' => V3 m ρ c main_v31 (ix2 0 c')) q = _
  rw [agg_eq, V3_v28, V3_v29, V3_v30, V3_v31, row_apply, row_apply]

end Cert.KernelIdeal.Bridge

end
-- ==== Proof.lean ====
/-
  A message-passing layer over 50000 nodes and 600000 edges: the kernel against its reference, on the extended reals.

  Both programs gather, per edge, the coordinates of its two endpoints and the features of its source; take the
  Euclidean distance of the endpoints; expand it in 128 radial basis functions `exp (γ · (d − μ_k)²)` with the same
  f32 word `γ`; pass the expansion through two bias-free layers with a ReLU; multiply by the source features; add the
  messages of the edges that end in each node (one scatter-add along the destination indices into a zero array); and
  update every node by one affine layer with a ReLU and one without. The kernel runs the per-edge arithmetic in a
  pipeline over 200 blocks of 3000 edges and the per-node arithmetic in a pipeline over 10 blocks of 5000 nodes, with
  the factors of every product rounded to bf16 on their way into the matrix unit — the identity on the extended reals —,
  and leaves the gathers and the scatter-add to the host; the reference does everything on whole arrays.

  The two results are equal array by array: the edge blocks tile the message array, which is then the reference's
  message array entry by entry (the same sums, products, maxima, `sqrt` and `exp` in the same order); the scatter-add
  is the same operation applied to equal operands; the node blocks tile the result array, which is the reference's
  result entry by entry. No entry is required to be finite: no law of arithmetic is used beyond equality of terms.
  The ideal pass rewrote nothing, so `preserves` is trivial; the three frames are the generated runs.
-/
import proofs.«149274_j24592982736979_1_alg».proof.Defs
import proofs.«149274_j24592982736979_1_alg».proof.Proof.Gen.Kernel
import proofs.«149274_j24592982736979_1_alg».proof.Proof.Gen.Kernel.Skeleton
import proofs.«149274_j24592982736979_1_alg».proof.Proof.Gen.Kernel.Launch
import proofs.«149274_j24592982736979_1_alg».proof.Proof.Gen.Kernel.Points
import proofs.«149274_j24592982736979_1_alg».proof.Proof.Gen.Kernel.Frame
import proofs.«149274_j24592982736979_1_alg».proof.Proof.Gen.KernelIdeal
import proofs.«149274_j24592982736979_1_alg».proof.Proof.Gen.KernelIdeal.Skeleton
import proofs.«149274_j24592982736979_1_alg».proof.Proof.Gen.KernelIdeal.Launch
import proofs.«149274_j24592982736979_1_alg».proof.Proof.Gen.KernelIdeal.Points
import proofs.«149274_j24592982736979_1_alg».proof.Proof.Gen.KernelIdeal.Frame
import proofs.«149274_j24592982736979_1_alg».proof.Proof.Gen.ReferenceIdeal
import proofs.«149274_j24592982736979_1_alg».proof.Proof.Gen.ReferenceIdeal.Run
import proofs.«149274_j24592982736979_1_alg».proof.Proof.Gen.ReferenceIdeal.Read
import proofs.«149274_j24592982736979_1_alg».proof.Proof.Gen.Pre_finite_inputs
import proofs.«149274_j24592982736979_1_alg».proof.Proof.KernelRun
import proofs.«149274_j24592982736979_1_alg».proof.Proof.Bridge
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end with the reference's result of those arguments. -/
theorem algebraic : Cert.algebraic_KernelIdeal_ReferenceIdeal := by
  intro m ρ m' ρ' _ hagree
  refine ⟨fun c => Cert.ReferenceIdeal.Read.val_main_v57 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono
      (fun r h c => ⟨((h c).1).trans (Cert.KernelIdeal.Bridge.out_eq m ρ c), (h c).2⟩)
      (Cert.KernelIdeal.RunValue.run_result m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12, e13⟩ := hagree c
    rw [(h c).1, Cert.ReferenceIdeal.Read.val_main_v57_eq, e0, e1, e3, e4, e7, e8, e9, e10, e11, e12, e13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
